-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 83
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 137
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x128, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.ValueRun.lean ====
/-
  The idealized kernel's run with its RESULT named. The program is three grid regions among stretches of host
  operations; the buffer contents at the last boundary are the fold `W8` of those stretches and regions from the
  launch memory. Every weakly fair execution terminates, and the final memory holds, at the result buffer, what that
  fold holds there, and at each argument what was launched.
-/
import proofs.«168963_j26405458936016_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read at the result buffer as well as at the arguments: the last thread state holds every
    unscoped buffer at the last boundary's contents, and the result buffer is one of them. -/
theorem run_value : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.Payloads.lean ====
/-
  What each of the three kernel bodies stores, read at row `a` and column `b` of its block, over the extended reals.
  A change of float format is the identity there and the matrix unit's product into the zero splat is the plain sum
  over the contracted coordinate, so:
    body 0 stores  ∑ k, x(a,k) · w(k,b);
    body 1 stores  ∑ k, max (x(a,k) + bias(0,k)) 0 · w(k,b)   (the bias row spread over the rows, then relu, then the product);
    body 2 stores  logistic (x(a,b) + bias(0,b)).
-/
import proofs.«168963_j26405458936016_2_alg».proof.Proof.Gen.KernelIdeal.Skeleton
import proofs.«168963_j26405458936016_2_alg».proof.Proof.LibPlainMatmul
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- The float zero of the bodies and of the host programs, as they spell it. -/
abbrev fzero : EReal := FloatOps.ofBits (F := Ideal) .f32 0x00000000#32

/-- Body 0: an entry of the stored block is the row of `x` against the column of `w`. -/
theorem pay0_apply (x : Vec Ideal S5000x256 .f32) (w : Vec Ideal S256x256 .f32) (a : Fin 5000) (b : Fin 256) :
    k0_pay1 (F := Ideal) x w (ix2 a b) = ∑ k : Fin 256, x (ix2 a k) * w (ix2 k b) :=
  Cert.LibPlainMatmul.matmul_plain_apply none x w a b

/-- The bias row [1, n] spread over the rows, at (a, k), is the row's entry k. -/
theorem bias_row_apply {r n : Nat} (bias : (⟨2, ![1, n]⟩ : Shape).Idx → EReal)
    (h : (⟨2, ![1, n]⟩ : Shape).Broadcasts ⟨2, ![r, n]⟩) (a : Fin r) (k : Fin n) :
    broadcastTo (⟨2, ![r, n]⟩ : Shape) bias h (ix2 a k) = bias (ix2 0 k) := by
  refine broadcastTo_apply bias h (ix2 a k) (ix2 0 k) fun d => ?_
  match d with
  | ⟨0, _⟩ => simp
  | ⟨1, _⟩ =>
    by_cases h1 : n = 1
    · subst h1; simp [Fin.val_eq_zero]
    · simp [h1]

/-- The matrix unit's [5000,256]·[256,128] product into the zero splat, at (a, b). -/
theorem matmul1_at (A : FVec Ideal S5000x256 .bf16) (W : FVec Ideal S256x128 .bf16) (a : Fin 5000) (b : Fin 128) :
    matmul dot_S5000x256_S256x128_S5000x128_1_0_0_1_n_n none A W (constant (F := Ideal) S5000x128 .f32 0x00000000#32) (ix2 a b)
      = ∑ k : Fin 256, A (ix2 a k) * W (ix2 k b) :=
  Cert.LibPlainMatmul.matmul_plain_apply none A W a b

/-- Body 1: bias, relu, then the row against the column of `w`. -/
theorem pay1_apply (x : Vec Ideal S5000x256 .f32) (bias : Vec Ideal S1x256 .f32) (w : Vec Ideal S256x128 .f32)
    (a : Fin 5000) (b : Fin 128) :
    k1_pay1 (F := Ideal) x bias w (ix2 a b)
      = ∑ k : Fin 256, max (x (ix2 a k) + bias (ix2 0 k)) fzero * w (ix2 k b) := by
  unfold k1_pay1
  refine (matmul1_at _ _ a b).trans (Finset.sum_congr rfl fun k _ => ?_)
  show max (shapeCast S5000x256 x shapeCasts_S5000x256_S5000x256 (ix2 a k)
      + broadcastTo S5000x256 (shapeCast S1x256 bias shapeCasts_S1x256_S1x256) broadcasts_S1x256_S5000x256 (ix2 a k)) fzero
        * w (ix2 k b) = _
  rw [shapeCast_self, shapeCast_self, bias_row_apply]

/-- Body 2: bias, then the logistic function. -/
theorem pay2_apply (x : Vec Ideal S5000x128 .f32) (bias : Vec Ideal S1x128 .f32) (a : Fin 5000) (b : Fin 128) :
    k2_pay1 (F := Ideal) x bias (ix2 a b) = Ideal.logistic (x (ix2 a b) + bias (ix2 0 b)) := by
  unfold k2_pay1
  show Ideal.logistic (shapeCast S5000x128 x shapeCasts_S5000x128_S5000x128 (ix2 a b)
      + broadcastTo S5000x128 (shapeCast S1x128 bias shapeCasts_S1x128_S1x128) broadcasts_S1x128_S5000x128 (ix2 a b)) = _
  rw [shapeCast_self, shapeCast_self, bias_row_apply]

end Cert.KernelIdeal.Hand

end
-- ==== Proof.Region0.lean ====
/-
  The first grid region (x @ W1), as one function of the arrays it finds at entry.
  Point t of the ten takes rows 5000·t … 5000·t + 4999 of the [50000,256] input and the whole [256,256] weight, and
  writes the same rows of the output. The row blocks tile the output, so after the region the output array is,
  entry by entry,  ∑ k, X(r, k) · W(k, q).
-/
import proofs.«168963_j26405458936016_2_alg».proof.Proof.Gen.KernelIdeal.Frame
import proofs.«168963_j26405458936016_2_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Every row of `X` against every column of `W`. -/
def rowsTimes0 (X : S50000x256.Idx → EReal) (W : S256x256.Idx → EReal) : S50000x256.Idx → EReal :=
  fun i => ∑ k : Fin 256, X (ix2 (n0 := 50000) (n1 := 256) (i 0) k) * W (ix2 (n0 := 256) (n1 := 256) k (i 1))

/-- One entry of a stored block: if the input block's row is the array's row of `i`, the weight block is the weight,
    and `i` has the block entry's column, the body's payload there is the specification at `i`. -/
theorem rowsTimes0_point (x0 : Vec Ideal S5000x256 .f32) (x1 : Vec Ideal S256x256 .f32)
    (X : S50000x256.Idx → EReal) (W : S256x256.Idx → EReal) (j : S5000x256.Idx) (i : S50000x256.Idx)
    (hx : ∀ k : Fin 256, x0 (ix2 (n0 := 5000) (n1 := 256) (j 0) k) = X (ix2 (n0 := 50000) (n1 := 256) (i 0) k))
    (hw : ∀ y : S256x256.Idx, x1 y = W y) (hq : i 1 = j 1) :
    k0_pay1 (F := Ideal) x0 x1 j = rowsTimes0 X W i := by
  obtain ⟨a, b, rfl⟩ : ∃ (a : Fin 5000) (b : Fin 256), j = ix2 a b := ⟨j 0, j 1, eq_ix2 j⟩
  have hx' : ∀ k : Fin 256, x0 (ix2 a k) = X (ix2 (n0 := 50000) (n1 := 256) (i 0) k) := hx
  have hq' : i 1 = b := hq
  rw [pay0_apply]
  unfold rowsTimes0
  rw [hq']
  exact Finset.sum_congr rfl fun k _ => by rw [hx' k, hw]

/-- The printed index maps over the grid: the row-blocked windows sit at block (t, 0), the weight window at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the specification of the arrays the region finds. -/
theorem flushed0_eq (c : Dev nD) (t : Fin cfg0.N) :
    (dat0 V c).flushed 2 t = ((cfg0.win 2).blk t).view.read (Elt Ideal) (rowsTimes0 (V c main_arg0) (V c main_arg2)) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x256) hz0]
  obtain ⟨e0, e1, e2, e3, e4, e5⟩ := idx0 t
  funext j
  show k0_pay1 (F := Ideal) (iblk0 V c 0 t) (iblk0 V c 1 t) j
    = rowsTimes0 (V c main_arg0) (V c main_arg2) (((cfg0.win 2).blk t).view.emb j)
  refine rowsTimes0_point _ _ _ _ j _ (fun k => ?_) (fun y => ?_) ?_
  · show V c main_arg0 (((cfg0.win 0).blk t).view.emb (ix2 (n0 := 5000) (n1 := 256) (j 0) k))
      = V c main_arg0 (ix2 (n0 := 50000) (n1 := 256) ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg2 (((cfg0.win 1).blk t).view.emb y) = V c main_arg2 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · refine Fin.ext ?_
    show win0_2.index t (1 : Fin 2) * 256 + 1 * (j 1).val = (j 1).val
    omega

/-- An index of the output array is in point `t`'s block iff each coordinate is in the block's range. -/
theorem mem_blk0 (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v30).slice (win0_2.rect t)).set ↔ _
  rw [View.set_slice_whole, Rect.mem_set_unit]
  exact Iff.rfl

/-- The output array after the region: the specification of the arrays the region finds. -/
theorem arr0 (c : Dev nD) : (dat0 V c).arrAt 2 cfg0.N = rowsTimes0 (V c main_arg0) (V c main_arg2) :=
  (dat0 V c).arrAt_eq_of_cover 2 (rowsTimes0 (V c main_arg0) (V c main_arg2)) (fun t _ => flushed0_eq V c t) fun i => by
    have h0 : (i 0).val < 50000 := (i 0).isLt
    have h1 : (i 1).val < 256 := (i 1).isLt
    have hN : cfg0.N = 10 := N_0
    refine ⟨⟨(i 0).val / 5000, by rw [hN]; omega⟩, flush0_2 _, ?_⟩
    obtain ⟨e0, e1, e2, e3, e4, e5⟩ := idx0 ⟨(i 0).val / 5000, by rw [hN]; omega⟩
    rw [mem_blk0]
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 256 ≤ (i 1).val ∧ (i 1).val < win0_2.index _ (1 : Fin 2) * 256 + 256
      rw [e5]; omega

end Cert.KernelIdeal.Hand

end
-- ==== Proof.Region1.lean ====
/-
  The second grid region (bias + relu, then @ W2), as one function of the arrays it finds at entry.
  Point t of the ten takes rows 5000·t … 5000·t + 4999 of the [50000,256] input, the whole [1,256] bias row and the
  whole [256,128] weight, and writes the same rows of the [50000,128] output. The row blocks tile the output, so
  after the region the output array is, entry by entry,  ∑ k, max (X(r, k) + B(0, k)) 0 · W(k, q).
-/
import proofs.«168963_j26405458936016_2_alg».proof.Proof.Gen.KernelIdeal.Frame
import proofs.«168963_j26405458936016_2_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Every row of `X`, with the bias row added and clamped below at zero, against every column of `W`. -/
def reluRowsTimes1 (X : S50000x256.Idx → EReal) (B : S1x256.Idx → EReal) (W : S256x128.Idx → EReal) : S50000x128.Idx → EReal :=
  fun i => ∑ k : Fin 256, max (X (ix2 (n0 := 50000) (n1 := 256) (i 0) k) + B (ix2 (n0 := 1) (n1 := 256) 0 k)) fzero
    * W (ix2 (n0 := 256) (n1 := 128) k (i 1))

/-- One entry of a stored block: if the input block's row is the array's row of `i`, the bias and weight blocks are
    the bias row and the weight, and `i` has the block entry's column, the payload there is the specification at `i`. -/
theorem reluRowsTimes1_point (x0 : Vec Ideal S5000x256 .f32) (x1 : Vec Ideal S1x256 .f32) (x2 : Vec Ideal S256x128 .f32)
    (X : S50000x256.Idx → EReal) (B : S1x256.Idx → EReal) (W : S256x128.Idx → EReal) (j : S5000x128.Idx) (i : S50000x128.Idx)
    (hx : ∀ k : Fin 256, x0 (ix2 (n0 := 5000) (n1 := 256) (j 0) k) = X (ix2 (n0 := 50000) (n1 := 256) (i 0) k))
    (hb : ∀ k : Fin 256, x1 (ix2 (n0 := 1) (n1 := 256) 0 k) = B (ix2 (n0 := 1) (n1 := 256) 0 k))
    (hw : ∀ y : S256x128.Idx, x2 y = W y) (hq : i 1 = j 1) :
    k1_pay1 (F := Ideal) x0 x1 x2 j = reluRowsTimes1 X B W i := by
  obtain ⟨a, b, rfl⟩ : ∃ (a : Fin 5000) (b : Fin 128), j = ix2 a b := ⟨j 0, j 1, eq_ix2 j⟩
  have hx' : ∀ k : Fin 256, x0 (ix2 a k) = X (ix2 (n0 := 50000) (n1 := 256) (i 0) k) := hx
  have hq' : i 1 = b := hq
  rw [pay1_apply]
  unfold reluRowsTimes1
  rw [hq']
  exact Finset.sum_congr rfl fun k _ => by rw [hx' k, hb k, hw]

/-- The printed index maps over the grid: the row-blocked windows sit at block (t, 0), the others at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the specification of the arrays the region finds. -/
theorem flushed1_eq (c : Dev nD) (t : Fin cfg1.N) :
    (dat1 V c).flushed 3 t = ((cfg1.win 3).blk t).view.read (Elt Ideal)
      (reluRowsTimes1 (V c main_v43) (V c main_v44) (V c main_arg4)) := by
  show (cfg1.win 3).cut (grid1.coords t) ((dat1 V c).after 3 t) = _
  rw [after1_3]
  unfold out1_3
  rw [View.canon_unit_zero hz1]
  simp only [View.ld_unit_zero (S := S5000x256) hz1, View.ld_unit_zero (S := S1x256) hz1, View.ld_unit_zero (S := S256x128) hz1]
  obtain ⟨e0, e1, e2, e3, e4, e5, e6, e7⟩ := idx1 t
  funext j
  show k1_pay1 (F := Ideal) (iblk1 V c 0 t) (iblk1 V c 1 t) (iblk1 V c 2 t) j
    = reluRowsTimes1 (V c main_v43) (V c main_v44) (V c main_arg4) (((cfg1.win 3).blk t).view.emb j)
  refine reluRowsTimes1_point _ _ _ _ _ _ j _ (fun k => ?_) (fun k => ?_) (fun y => ?_) ?_
  · show V c main_v43 (((cfg1.win 0).blk t).view.emb (ix2 (n0 := 5000) (n1 := 256) (j 0) k))
      = V c main_v43 (ix2 (n0 := 50000) (n1 := 256) ((((cfg1.win 3).blk t).view.emb j) 0) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 256 + 1 * k.val = k.val; omega
  · show V c main_v44 (((cfg1.win 1).blk t).view.emb (ix2 (n0 := 1) (n1 := 256) 0 k)) = V c main_v44 (ix2 (n0 := 1) (n1 := 256) 0 k)
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  · show V c main_arg4 (((cfg1.win 2).blk t).view.emb y) = V c main_arg4 y
    refine congrArg _ (funext fun a => Fin.ext ?_)
    match a with
    | ⟨0, _⟩ => show win1_2.index t (0 : Fin 2) * 256 + 1 * (y 0).val = (y 0).val; omega
    | ⟨1, _⟩ => show win1_2.index t (1 : Fin 2) * 128 + 1 * (y 1).val = (y 1).val; omega
  · refine Fin.ext ?_
    show win1_3.index t (1 : Fin 2) * 128 + 1 * (j 1).val = (j 1).val
    omega

/-- An index of the output array is in point `t`'s block iff each coordinate is in the block's range. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- The output array after the region: the specification of the arrays the region finds. -/
theorem arr1 (c : Dev nD) : (dat1 V c).arrAt 3 cfg1.N = reluRowsTimes1 (V c main_v43) (V c main_v44) (V c main_arg4) :=
  (dat1 V c).arrAt_eq_of_cover 3 (reluRowsTimes1 (V c main_v43) (V c main_v44) (V c main_arg4)) (fun t _ => flushed1_eq V c t) fun i => by
    have h0 : (i 0).val < 50000 := (i 0).isLt
    have h1 : (i 1).val < 128 := (i 1).isLt
    have hN : cfg1.N = 10 := N_1
    refine ⟨⟨(i 0).val / 5000, by rw [hN]; omega⟩, flush1_3 _, ?_⟩
    obtain ⟨e0, e1, e2, e3, e4, e5, e6, e7⟩ := idx1 ⟨(i 0).val / 5000, by rw [hN]; omega⟩
    rw [mem_blk1]
    intro a
    match a with
    | ⟨0, _⟩ =>
      show win1_3.index _ (0 : Fin 2) * 5000 ≤ (i 0).val ∧ (i 0).val < win1_3.index _ (0 : Fin 2) * 5000 + 5000
      rw [e6]; show (i 0).val / 5000 * 5000 ≤ (i 0).val ∧ (i 0).val < (i 0).val / 5000 * 5000 + 5000; omega
    | ⟨1, _⟩ =>
      show win1_3.index _ (1 : Fin 2) * 128 ≤ (i 1).val ∧ (i 1).val < win1_3.index _ (1 : Fin 2) * 128 + 128
      rw [e7]; omega

end Cert.KernelIdeal.Hand

end
-- ==== Proof.Region2.lean ====
/-
  The third grid region (bias + logistic), as one function of the arrays it finds at entry.
  The grid has ten points; point t takes rows 5000·t … 5000·t + 4999 of the [50000,128] input, the whole [1,128] bias
  row, and writes the same rows of the output. The ten row blocks tile the output, so after the region the output
  array is, entry by entry,  logistic (X(r, q) + B(0, q)).
-/
import proofs.«168963_j26405458936016_2_alg».proof.Proof.Gen.KernelIdeal.Frame
import proofs.«168963_j26405458936016_2_alg».proof.Proof.Payloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Rows plus a bias row, through the logistic function. -/
def biasLogistic (X : S50000x128.Idx → EReal) (B : S1x128.Idx → EReal) : S50000x128.Idx → EReal :=
  fun i => Ideal.logistic (X i + B (ix2 (n0 := 1) (n1 := 128) 0 (i 1)))

/-- One entry of a stored block: if the input block's entry is the array's at `i`, the bias block is the bias row, and
    `i` has the block entry's column, the body's payload there is the specification at `i`. -/
theorem biasLogistic_point (x0 : Vec Ideal S5000x128 .f32) (x1 : Vec Ideal S1x128 .f32)
    (X : S50000x128.Idx → EReal) (B : S1x128.Idx → EReal) (j : S5000x128.Idx) (i : S50000x128.Idx)
    (hx : x0 j = X i) (hb : ∀ q : Fin 128, x1 (ix2 0 q) = B (ix2 0 q)) (hq : i 1 = j 1) :
    k2_pay1 (F := Ideal) x0 x1 j = biasLogistic X B i := by
  obtain ⟨a, b, rfl⟩ : ∃ (a : Fin 5000) (b : Fin 128), j = ix2 a b := ⟨j 0, j 1, eq_ix2 j⟩
  rw [pay2_apply, hx, hb]
  unfold biasLogistic
  rw [hq]

/-- The printed index maps over the grid: the row-blocked windows sit at block (t, 0), the bias window at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the specification of the arrays the region finds. -/
theorem flushed2_eq (c : Dev nD) (t : Fin cfg2.N) :
    (dat2 V c).flushed 2 t = ((cfg2.win 2).blk t).view.read (Elt Ideal) (biasLogistic (V c main_v58) (V c main_v59)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S1x128) hz2]
  obtain ⟨e0, e1, e2, e3, e4, e5⟩ := idx2 t
  funext j
  show k2_pay1 (F := Ideal) (iblk2 V c 0 t) (iblk2 V c 1 t) j
    = biasLogistic (V c main_v58) (V c main_v59) (((cfg2.win 2).blk t).view.emb j)
  refine biasLogistic_point _ _ _ _ j _ ?_ (fun q => ?_) ?_
  · show V c main_v58 (((cfg2.win 0).blk t).view.emb j) = V c main_v58 (((cfg2.win 2).blk t).view.emb j)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  · show V c main_v59 (((cfg2.win 1).blk t).view.emb (ix2 (n0 := 1) (n1 := 128) 0 q)) = V c main_v59 (ix2 (n0 := 1) (n1 := 128) 0 q)
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  · refine Fin.ext ?_
    show win2_2.index t (1 : Fin 2) * 128 + 1 * (j 1).val = (j 1).val
    omega

/-- An index of the output array is in point `t`'s block iff each coordinate is in the block's range. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v60).slice (win2_2.rect t)).set ↔ _
  rw [View.set_slice_whole, Rect.mem_set_unit]
  exact Iff.rfl

/-- The output array after the region: the specification of the arrays the region finds. -/
theorem arr2 (c : Dev nD) : (dat2 V c).arrAt 2 cfg2.N = biasLogistic (V c main_v58) (V c main_v59) :=
  (dat2 V c).arrAt_eq_of_cover 2 (biasLogistic (V c main_v58) (V c main_v59)) (fun t _ => flushed2_eq V c t) fun i => by
    have h0 : (i 0).val < 50000 := (i 0).isLt
    have h1 : (i 1).val < 128 := (i 1).isLt
    have hN : cfg2.N = 10 := N_2
    refine ⟨⟨(i 0).val / 5000, by rw [hN]; omega⟩, flush2_2 _, ?_⟩
    obtain ⟨e0, e1, e2, e3, e4, e5⟩ := idx2 ⟨(i 0).val / 5000, by rw [hN]; omega⟩
    rw [mem_blk2]
    intro a
    match a with
    | ⟨0, _⟩ =>
      show win2_2.index _ (0 : Fin 2) * 5000 ≤ (i 0).val ∧ (i 0).val < win2_2.index _ (0 : Fin 2) * 5000 + 5000
      rw [e4]; show (i 0).val / 5000 * 5000 ≤ (i 0).val ∧ (i 0).val < (i 0).val / 5000 * 5000 + 5000; omega
    | ⟨1, _⟩ =>
      show win2_2.index _ (1 : Fin 2) * 128 ≤ (i 1).val ∧ (i 1).val < win2_2.index _ (1 : Fin 2) * 128 + 128
      rw [e5]; omega

end Cert.KernelIdeal.Hand

end
-- ==== Proof.Bridge.lean ====
/-
  The idealized kernel's result buffer, after the last region, holds the reference's last stage of the launched
  arguments.

  Both programs compute a two-layer graph convolution. With src, dst the message endpoints (the edge list followed by
  one self loop per node), deg the number of messages into a node, norm(e) = deg(src e)^(-1/2) · deg(dst e)^(-1/2) and
  agg(H)(v, q) = ∑ over messages e into v of H(src e, q) · norm(e):
      out = logistic (agg (relu (agg (x · W1) + b1) · W2) + b2).
  The host operations that build src, dst, norm and agg are the same text in both programs (the reference builds the
  graph part twice, once per layer; the kernel once), so those stages agree as written. What differs is where the three
  dense stages run: the kernel's grid regions against the reference's host operations. Each region's output array is
  the reference's stage at the same operands:
    region 0: every row of x against every column of W1 is the host's contraction;
    region 1: rows plus the bias row, clamped below at zero, against the columns of W2 is the host's contraction of the
              host's relu of the host's sum with the bias spread over the rows;
    region 2: logistic of rows plus the bias row is the host's 1 / (1 + exp (−(rows + bias))).
  The bias reaches the kernel as the vector reshaped to one row and the reference as the vector spread over the rows:
  both read entry q of the vector at column q.
-/
import proofs.«168963_j26405458936016_2_alg».proof.Proof.Region0
import proofs.«168963_j26405458936016_2_alg».proof.Proof.Region1
import proofs.«168963_j26405458936016_2_alg».proof.Proof.Region2
import proofs.«168963_j26405458936016_2_alg».proof.Proof.RefRead
import Idealize.ShloMosaic.Lib.ValueLayout
import Idealize.ShloMosaic.Lib.IdealHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Cert.ReferenceIdeal.ReadP

/-! ## The three dense stages -/

/-- Region 0's specification is the reference's first contraction. -/
theorem rowsTimes0_eq (X : S50000x256.Idx → EReal) (W : S256x256.Idx → EReal) :
    rowsTimes0 X W = val_main_v30 (F := Ideal) X W := by
  funext i
  rw [val_main_v30_apply]
  unfold rowsTimes0
  refine Finset.sum_congr rfl fun k _ => ?_
  have hl : lidx_main_v30 i k = ix2 (n0 := 50000) (n1 := 256) (i 0) k :=
    funext fun a => Fin.ext (by match a with | ⟨0, _⟩ => rfl | ⟨1, _⟩ => rfl)
  have hr : ridx_main_v30 i k = ix2 (n0 := 256) (n1 := 256) k (i 1) :=
    funext fun a => Fin.ext (by match a with | ⟨0, _⟩ => rfl | ⟨1, _⟩ => rfl)
  rw [hl, hr]

/-- Region 1's specification, at the first aggregation and the bias reshaped to a row, is the reference's second
    contraction (of its relu of its biased aggregation). -/
theorem reluRowsTimes1_eq (x0 : S50000x256.Idx → EReal) (x1 : S2x800000.Idx → BitVec 32) (x2 : S256x256.Idx → EReal)
    (x3 : S256.Idx → EReal) (x4 : S256x128.Idx → EReal) :
    reluRowsTimes1 (val_main_v43 (F := Ideal) x0 x1 x2) (shapeCast S1x256 x3 shapeCasts_S256_S1x256) x4
      = val_main_v78 (F := Ideal) x0 x1 x2 x3 x4 := by
  funext i
  rw [val_main_v78_apply]
  unfold reluRowsTimes1
  refine Finset.sum_congr rfl fun k _ => ?_
  have hl : lidx_main_v78 i k = ix2 (n0 := 50000) (n1 := 256) (i 0) k :=
    funext fun a => Fin.ext (by match a with | ⟨0, _⟩ => rfl | ⟨1, _⟩ => rfl)
  have hr : ridx_main_v78 i k = ix2 (n0 := 256) (n1 := 128) k (i 1) :=
    funext fun a => Fin.ext (by match a with | ⟨0, _⟩ => rfl | ⟨1, _⟩ => rfl)
  have hb : idx_main_v44 (idx_main_v45 (ix2 (n0 := 50000) (n1 := 256) (i 0) k)) = ix1 (n := 256) k :=
    funext fun a => Fin.ext (by match a with | ⟨0, _⟩ => rfl)
  rw [hl, hr, val_main_v47_apply, val_main_v46_apply, val_main_v45_apply, val_main_v44_apply, val_main_call1_v0_apply,
    val_main_call1_cst_apply, hb, shapeCast_a_1a_apply]
  rfl

/-- Region 2's specification, at the second aggregation and the bias reshaped to a row, is the reference's result:
    the logistic function is one over one plus the exponential of the negation. -/
theorem biasLogistic_eq (x0 : S50000x256.Idx → EReal) (x1 : S2x800000.Idx → BitVec 32) (x2 : S256x256.Idx → EReal)
    (x3 : S256.Idx → EReal) (x4 : S256x128.Idx → EReal) (x5 : S128.Idx → EReal) :
    biasLogistic (val_main_v91 (F := Ideal) x0 x1 x2 x3 x4) (shapeCast S1x128 x5 shapeCasts_S128_S1x128)
      = val_main_v100 (F := Ideal) x0 x1 x2 x3 x4 x5 := by
  funext i
  have hb : idx_main_v92 (idx_main_v93 i) = ix1 (n := 128) (i 1) :=
    funext fun a => Fin.ext (by match a with | ⟨0, _⟩ => rfl)
  have hs : shapeCast S1x128 x5 shapeCasts_S128_S1x128 (ix2 (n0 := 1) (n1 := 128) 0 (i 1)) = x5 (ix1 (n := 128) (i 1)) :=
    shapeCast_a_1a_apply (a := 128) x5 shapeCasts_S128_S1x128 0 (i 1)
  unfold biasLogistic
  rw [val_main_v100_apply, val_main_v99_apply, val_main_cst_21_apply, val_main_v98_apply, val_main_v97_apply,
    val_main_cst_20_apply, val_main_v96_apply, val_main_v95_apply, val_main_v94_apply, val_main_v93_apply,
    val_main_v92_apply, hb, hs]
  simp only [Ideal.hostDivf_def, Ideal.addf_def, Ideal.hostUnary_exp_def, Ideal.hostNegf_def, Ideal.negf_def,
    Ideal.ofBits_def, Ideal.ofBits_one_f32]
  rfl

/-! ## The kernel's buffers at each boundary -/

variable (m : (ℓ : Loc nD τ sig) → Buf (Elt Ideal) ℓ) (ρ : Dev nD → PrngReg) (c : Dev nD)

/-! ### Before region 0: the arguments as launched, and the graph part -/

theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl

/-- The message sources. -/
theorem W3_v3 : W3 m ρ c (Proc.devRef .tc main_v3) = val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results_simp <;> rfl
/-- The message targets. -/
theorem W3_v6 : W3 m ρ c (Proc.devRef .tc main_v6) = val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results_simp <;> rfl

/-! The degrees' reciprocal square roots (zero where a node has no message) come out of a called function whose three
    operations carry their values through a transport along a type equation that holds by computation; they are read
    over an arbitrary valuation, where the transport is the identity, after the three buffers the function reads. -/

theorem W1_v12 : W1 m ρ c (Proc.devRef .tc main_v12) = val_main_v12 (F := Ideal) (m ((c.tc : Thread nD τ).loc main_arg1)) := by
  show StableHlo.after hostOps0 (W0 m ρ c) (Proc.devRef .tc main_v12) = _
  after_results_simp <;> rfl
theorem W1_v13 : W1 m ρ c (Proc.devRef .tc main_v13) = val_main_v13 (F := Ideal) (m ((c.tc : Thread nD τ).loc main_arg1)) := by
  show StableHlo.after hostOps0 (W0 m ρ c) (Proc.devRef .tc main_v13) = _
  after_results_simp <;> rfl
theorem W1_cst_2 : W1 m ρ c (Proc.devRef .tc main_cst_2) = val_main_cst_2 (F := Ideal) := by
  show StableHlo.after hostOps0 (W0 m ρ c) (Proc.devRef .tc main_cst_2) = _
  after_results_simp <;> rfl

/-- The called function's result over any valuation: the select of its three operands. -/
theorem where_result (U : Valuation τ sig (Elt Ideal)) :
    StableHlo.after hostOps0_1 U (Proc.devRef .tc main_v14)
      = select (U (Proc.devRef .tc main_v12)) (U (Proc.devRef .tc main_v13))
          (broadcastInDim S50000 ![] bcast_S_S50000 (id (U (Proc.devRef .tc main_cst_2)))) := rfl

theorem W2_v14 : W2 m ρ c (Proc.devRef .tc main_v14) = val_main_v14 (F := Ideal) (m ((c.tc : Thread nD τ).loc main_arg1)) := by
  show StableHlo.after hostOps0_1 (W1 m ρ c) (Proc.devRef .tc main_v14) = _
  rw [where_result, W1_v12, W1_v13, W1_cst_2]
  rfl
theorem W2_v3 : W2 m ρ c (Proc.devRef .tc main_v3) = val_main_v3 (F := Ideal) (m ((c.tc : Thread nD τ).loc main_arg1)) := by
  show StableHlo.after hostOps0_1 (StableHlo.after hostOps0 (W0 m ρ c)) (Proc.devRef .tc main_v3) = _
  after_results_simp <;> rfl
theorem W2_v6 : W2 m ρ c (Proc.devRef .tc main_v6) = val_main_v6 (F := Ideal) (m ((c.tc : Thread nD τ).loc main_arg1)) := by
  show StableHlo.after hostOps0_1 (StableHlo.after hostOps0 (W0 m ρ c)) (Proc.devRef .tc main_v6) = _
  after_results_simp <;> rfl

/-- The messages' symmetric normalisation: the last stretch before region 0 read over an arbitrary valuation, at which
    the three buffers it reads hold the reference's stages. -/
theorem W3_v29 : W3 m ρ c (Proc.devRef .tc main_v29) = val_main_v29 (F := Ideal) (m ((c.tc : Thread nD τ).loc main_arg1)) := by
  show StableHlo.after hostOps0_2 (W2 m ρ c) (Proc.devRef .tc main_v29) = _
  have h14 := W2_v14 m ρ c
  have h3 := W2_v3 m ρ c
  have h6 := W2_v6 m ρ c
  revert h14 h3 h6
  generalize W2 m ρ c = U
  intro h14 h3 h6
  after_results_simp
  rw [h14, h3, h6]
  rfl

end Cert.KernelIdeal.Hand

end
-- ==== Proof.Result.lean ====
/-
  The kernel's buffers from the first region's exit to the last region's exit, each against the reference's stage of
  the launched arguments x0 … x5:
    after region 0, its output holds the first contraction (stage 30); the graph buffers and arguments are untouched;
    the host stretch then gathers, scales and scatter-adds it: the first aggregation (stage 43), and reshapes b1;
    after region 1, its output holds the second contraction (stage 78);
    the next stretch aggregates again (stage 91; the reference's second copy of the graph part is the first, as
    written) and reshapes b2;
    after region 2, the result buffer holds the reference's result (stage 100).
-/
import proofs.«168963_j26405458936016_2_alg».proof.Proof.Bridge

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Cert.ReferenceIdeal.ReadP

variable (m : (ℓ : Loc nD τ sig) → Buf (Elt Ideal) ℓ) (ρ : Dev nD → PrngReg) (c : Dev nD)

/-! ### After region 0 -/

theorem W4_v30 : W4 m ρ c (Proc.devRef .tc main_v30) = val_main_v30 (F := Ideal) (m ((c.tc : Thread nD τ).loc main_arg0)) (m ((c.tc : Thread nD τ).loc main_arg2)) :=
  (W4_arr m ρ c 2).trans ((arr0 (V3 m ρ) c).trans (by
    show rowsTimes0 (W3 m ρ c (Proc.devRef .tc main_arg0)) (W3 m ρ c (Proc.devRef .tc main_arg2)) = _
    rw [W3_arg0, W3_arg2]
    exact rowsTimes0_eq _ _))

theorem W4_v3 : W4 m ρ c (Proc.devRef .tc main_v3) = val_main_v3 (F := Ideal) (m ((c.tc : Thread nD τ).loc main_arg1)) :=
  (W4_of_ne m ρ c main_v3 (by decide)).trans (W3_v3 m ρ c)
theorem W4_v6 : W4 m ρ c (Proc.devRef .tc main_v6) = val_main_v6 (F := Ideal) (m ((c.tc : Thread nD τ).loc main_arg1)) :=
  (W4_of_ne m ρ c main_v6 (by decide)).trans (W3_v6 m ρ c)
theorem W4_v29 : W4 m ρ c (Proc.devRef .tc main_v29) = val_main_v29 (F := Ideal) (m ((c.tc : Thread nD τ).loc main_arg1)) :=
  (W4_of_ne m ρ c main_v29 (by decide)).trans (W3_v29 m ρ c)
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ### Before region 1 -/

/-- The first aggregation. -/
theorem W5_v43 : W5 m ρ c (Proc.devRef .tc main_v43) = val_main_v43 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results_simp
  rw [W4_v30, W4_v3, W4_v6, W4_v29]
  rfl
/-- The first bias as a row. -/
theorem W5_v44 : W5 m ρ c (Proc.devRef .tc main_v44) = shapeCast S1x256 (m ((c.tc : Thread nD τ).loc main_arg3) : S256.Idx → EReal) shapeCasts_S256_S1x256 := by
  show StableHlo.after hostOps1 (W4 m ρ c) (Proc.devRef .tc main_v44) = _
  after_results_simp
  rw [W4_arg3]
  rfl
theorem W5_arg4 : W5 m ρ c (Proc.devRef .tc main_arg4) = (m ((c.tc : Thread nD τ).loc main_arg4)) := by
  show StableHlo.after hostOps1 (W4 m ρ c) (Proc.devRef .tc main_arg4) = _
  after_results_simp
  exact W4_arg4 m ρ c
theorem W5_arg5 : W5 m ρ c (Proc.devRef .tc main_arg5) = (m ((c.tc : Thread nD τ).loc main_arg5)) := by
  show StableHlo.after hostOps1 (W4 m ρ c) (Proc.devRef .tc main_arg5) = _
  after_results_simp
  exact W4_arg5 m ρ c
theorem W5_v3 : W5 m ρ c (Proc.devRef .tc main_v3) = val_main_v3 (F := Ideal) (m ((c.tc : Thread nD τ).loc main_arg1)) := by
  show StableHlo.after hostOps1 (W4 m ρ c) (Proc.devRef .tc main_v3) = _
  after_results_simp
  exact W4_v3 m ρ c
theorem W5_v6 : W5 m ρ c (Proc.devRef .tc main_v6) = val_main_v6 (F := Ideal) (m ((c.tc : Thread nD τ).loc main_arg1)) := by
  show StableHlo.after hostOps1 (W4 m ρ c) (Proc.devRef .tc main_v6) = _
  after_results_simp
  exact W4_v6 m ρ c
theorem W5_v29 : W5 m ρ c (Proc.devRef .tc main_v29) = val_main_v29 (F := Ideal) (m ((c.tc : Thread nD τ).loc main_arg1)) := by
  show StableHlo.after hostOps1 (W4 m ρ c) (Proc.devRef .tc main_v29) = _
  after_results_simp
  exact W4_v29 m ρ c

/-! ### After region 1 -/

theorem W6_v45 : W6 m ρ c (Proc.devRef .tc main_v45) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_arr m ρ c 3).trans ((arr1 (V5 m ρ) c).trans (by
    show reluRowsTimes1 (W5 m ρ c (Proc.devRef .tc main_v43)) (W5 m ρ c (Proc.devRef .tc main_v44))
      (W5 m ρ c (Proc.devRef .tc main_arg4)) = _
    rw [W5_v43, W5_v44, W5_arg4]
    exact reluRowsTimes1_eq _ _ _ _ _))

theorem W6_v3 : W6 m ρ c (Proc.devRef .tc main_v3) = val_main_v3 (F := Ideal) (m ((c.tc : Thread nD τ).loc main_arg1)) :=
  (W6_of_ne m ρ c main_v3 (by decide)).trans (W5_v3 m ρ c)
theorem W6_v6 : W6 m ρ c (Proc.devRef .tc main_v6) = val_main_v6 (F := Ideal) (m ((c.tc : Thread nD τ).loc main_arg1)) :=
  (W6_of_ne m ρ c main_v6 (by decide)).trans (W5_v6 m ρ c)
theorem W6_v29 : W6 m ρ c (Proc.devRef .tc main_v29) = val_main_v29 (F := Ideal) (m ((c.tc : Thread nD τ).loc main_arg1)) :=
  (W6_of_ne m ρ c main_v29 (by decide)).trans (W5_v29 m ρ c)
theorem W6_arg5 : W6 m ρ c (Proc.devRef .tc main_arg5) = (m ((c.tc : Thread nD τ).loc main_arg5)) :=
  (W6_of_ne m ρ c main_arg5 (by decide)).trans (W5_arg5 m ρ c)

/-! ### Before region 2 -/

/-- The second aggregation. -/
theorem W7_v58 : W7 m ρ c (Proc.devRef .tc main_v58) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W6 m ρ c) (Proc.devRef .tc main_v58) = _
  after_results_simp
  rw [W6_v45, W6_v3, W6_v6, W6_v29]
  rfl
/-- The second bias as a row. -/
theorem W7_v59 : W7 m ρ c (Proc.devRef .tc main_v59) = shapeCast S1x128 (m ((c.tc : Thread nD τ).loc main_arg5) : S128.Idx → EReal) shapeCasts_S128_S1x128 := by
  show StableHlo.after hostOps2 (W6 m ρ c) (Proc.devRef .tc main_v59) = _
  after_results_simp
  rw [W6_arg5]
  rfl

/-! ### After region 2 -/

/-- The result buffer holds the reference's result stage of the launched arguments. -/
theorem W8_v60 : W8 m ρ c (Proc.devRef .tc main_v60) = val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 2).trans ((arr2 (V7 m ρ) c).trans (by
    show biasLogistic (W7 m ρ c (Proc.devRef .tc main_v58)) (W7 m ρ c (Proc.devRef .tc main_v59)) = _
    rw [W7_v58, W7_v59]
    exact biasLogistic_eq _ _ _ _ _ _))

end Cert.KernelIdeal.Hand

end
-- ==== Proof.lean ====
/-
  A two-layer graph convolution, the kernel against its reference, over the extended reals.

  With src, dst the message endpoints (the 800000 edges followed by one self loop per node), deg(v) the number of
  messages into v, norm(e) = deg(src e)^(-1/2) · deg(dst e)^(-1/2), and agg(H)(v, q) the sum over the messages e into v
  of H(src e, q) · norm(e), both programs compute
      out = logistic (agg (relu (agg (x · W1) + b1) · W2) + b2).
  The kernel runs the three dense stages (x · W1; bias, relu and · W2; bias and logistic) as grid regions over row
  blocks of 5000 nodes and keeps the gathers and scatter-adds on the host; the reference runs everything on the host
  and builds the graph part once per layer. Over the extended reals a change of float format is the identity and both
  matrix products are the plain sum over the contracted coordinate, so each region's output array is the reference's
  stage of the same operands, the host stretches between them are the same operations in both programs, and the two
  results are one function of the arguments. No finiteness of the inputs is used: the two sides agree operation by
  operation, and only the order-free sums of the contractions are rearranged by the row blocking.

  The frames of the two kernel programs are the generated ones; the reference's frame is its run with the result
  dropped; the idealization rewrote no operation, so there is nothing to preserve.
-/
import proofs.«168963_j26405458936016_2_alg».proof.Defs
import proofs.«168963_j26405458936016_2_alg».proof.Proof.Gen.Kernel
import proofs.«168963_j26405458936016_2_alg».proof.Proof.Gen.Kernel.Skeleton
import proofs.«168963_j26405458936016_2_alg».proof.Proof.Gen.Kernel.Launch
import proofs.«168963_j26405458936016_2_alg».proof.Proof.Gen.Kernel.Points
import proofs.«168963_j26405458936016_2_alg».proof.Proof.Gen.Kernel.Frame
import proofs.«168963_j26405458936016_2_alg».proof.Proof.Gen.KernelIdeal
import proofs.«168963_j26405458936016_2_alg».proof.Proof.Gen.KernelIdeal.Skeleton
import proofs.«168963_j26405458936016_2_alg».proof.Proof.Gen.KernelIdeal.Launch
import proofs.«168963_j26405458936016_2_alg».proof.Proof.Gen.KernelIdeal.Points
import proofs.«168963_j26405458936016_2_alg».proof.Proof.Gen.KernelIdeal.Frame
import proofs.«168963_j26405458936016_2_alg».proof.Proof.Gen.ReferenceIdeal
import proofs.«168963_j26405458936016_2_alg».proof.Proof.Gen.Pre_finite_inputs
import proofs.«168963_j26405458936016_2_alg».proof.Proof.ValueRun
import proofs.«168963_j26405458936016_2_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the reference's last stage of the arguments: the kernel's by its buffers read
    boundary by boundary, the reference's by its run, the arguments agreeing. -/
theorem algebraic : Cert.algebraic_KernelIdeal_ReferenceIdeal := by
  intro m ρ m' ρ' _ hagree
  refine ⟨fun c => Cert.ReferenceIdeal.ReadP.val_main_v100 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.W8_v60 m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v100_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
